-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S2000x128 : Shape := ⟨2, ![2000, 128]⟩
abbrev S600000x128 : Shape := ⟨2, ![600000, 128]⟩
abbrev S50000x1 : Shape := ⟨2, ![50000, 1]⟩
abbrev S1x128 : Shape := ⟨2, ![1, 128]⟩
abbrev S2000 : Shape := ⟨1, ![2000]⟩
abbrev S2000x1 : Shape := ⟨2, ![2000, 1]⟩

abbrev nBuf : Space → Nat
  | .hbm => 104
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S_, .f32⟩
  | .hbm, ⟨25, _⟩ => ⟨S600000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000, .f32⟩
  | .hbm, ⟨49, _⟩ => ⟨S600000, .f32⟩
  | .hbm, ⟨50, _⟩ => ⟨S50000, .f32⟩
  | .hbm, ⟨51, _⟩ => ⟨S50000x128, .bf16⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x128, .bf16⟩
  | .hbm, ⟨61, _⟩ => ⟨S600000x128, .f32⟩
  | .hbm, ⟨62, _⟩ => ⟨S600000x1, .f32⟩
  | .hbm, ⟨63, _⟩ => ⟨S600000x128, .f32⟩
  | .hbm, ⟨64, _⟩ => ⟨S600000x128, .f32⟩
  | .hbm, ⟨65, _⟩ => ⟨S_, .f32⟩
  | .hbm, ⟨66, _⟩ => ⟨S50000x128, .f32⟩
  | .hbm, ⟨67, _⟩ => ⟨S600000x1, .i32⟩
  | .hbm, ⟨68, _⟩ => ⟨S50000x128, .f32⟩
  | .hbm, ⟨69, _⟩ => ⟨S50000x128, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S50000x128, .bf16⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x128, .bf16⟩
  | .hbm, ⟨87, _⟩ => ⟨S600000x128, .f32⟩
  | .hbm, ⟨88, _⟩ => ⟨S600000x1, .f32⟩
  | .hbm, ⟨89, _⟩ => ⟨S600000x128, .f32⟩
  | .hbm, ⟨90, _⟩ => ⟨S600000x128, .f32⟩
  | .hbm, ⟨91, _⟩ => ⟨S_, .f32⟩
  | .hbm, ⟨92, _⟩ => ⟨S50000x128, .f32⟩
  | .hbm, ⟨93, _⟩ => ⟨S600000x1, .i32⟩
  | .hbm, ⟨94, _⟩ => ⟨S50000x128, .f32⟩
  | .hbm, ⟨95, _⟩ => ⟨S50000x128, .f32⟩
  | .hbm, ⟨96, _⟩ => ⟨S50000x1, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S1x128, .f32⟩
  | .hbm, ⟨101, _⟩ => ⟨S1x128, .f32⟩
  | .hbm, ⟨102, _⟩ => ⟨S1x128, .f32⟩
  | .hbm, ⟨103, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S2000x128, .bf16⟩
  | .local _ .vmem, ⟨12, _⟩ => ⟨S2000x128, .bf16⟩
  | .local _ .vmem, ⟨13, _⟩ => ⟨S2000x128, .f32⟩
  | .local _ .vmem, ⟨14, _⟩ => ⟨S2000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v74) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg0) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v78) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩

abbrev nBuf : Space → Nat
  | .hbm => 201
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S1x600000, .i32⟩
  | 11 => ⟨S600000, .i32⟩
  | 12 => ⟨S1x600000, .i32⟩
  | 13 => ⟨S600000, .i32⟩
  | 14 => ⟨S50000x128, .f32⟩
  | 15 => ⟨S_, .f32⟩
  | 16 => ⟨S50000, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S_, .f32⟩
  | 26 => ⟨S600000, .f32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000, .f32⟩
  | 50 => ⟨S600000, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S600000x1, .f32⟩
  | 61 => ⟨S600000x128, .f32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000, .f32⟩
  | 77 => ⟨S50000x1, .f32⟩
  | 78 => ⟨S_, .f32⟩
  | 79 => ⟨S50000x1, .f32⟩
  | 80 => ⟨S50000x1, .f32⟩
  | 81 => ⟨S50000x128, .f32⟩
  | 82 => ⟨S50000x128, .f32⟩
  | 83 => ⟨S50000x128, .f32⟩
  | 84 => ⟨S_, .f32⟩
  | 85 => ⟨S50000, .f32⟩
  | 86 => ⟨S50000x1, .f32⟩
  | 87 => ⟨S_, .f32⟩
  | 88 => ⟨S50000x1, .f32⟩
  | 89 => ⟨S50000x1, .f32⟩
  | 90 => ⟨S50000x128, .f32⟩
  | 91 => ⟨S50000x128, .f32⟩
  | 92 => ⟨S_, .f32⟩
  | 93 => ⟨S50000x1, .f32⟩
  | 94 => ⟨S50000x1, .f32⟩
  | 95 => ⟨S50000x1, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x128, .f32⟩
  | 108 => ⟨S_, .f32⟩
  | 109 => ⟨S50000, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S_, .f32⟩
  | 119 => ⟨S600000, .f32⟩
  | 120 => ⟨S50000, .f32⟩
  | 121 => ⟨S_, .f32⟩
  | 122 => ⟨S50000, .f32⟩
  | 123 => ⟨S50000, .f32⟩
  | 124 => ⟨S50000, .f32⟩
  | 125 => ⟨S_, .i32⟩
  | 126 => ⟨S600000, .i32⟩
  | 127 => ⟨S600000, .i1⟩
  | _ => ⟨S50000x128, .f32⟩

abbrev hbmTy0_1 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000, .f32⟩
  | 15 => ⟨S600000, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S600000x1, .f32⟩
  | 26 => ⟨S600000x128, .f32⟩
  | 27 => ⟨S600000x128, .f32⟩
  | 28 => ⟨S_, .f32⟩
  | 29 => ⟨S50000x128, .f32⟩
  | 30 => ⟨S600000x1, .i32⟩
  | 31 => ⟨S50000x128, .f32⟩
  | 32 => ⟨S50000, .f32⟩
  | 33 => ⟨S50000x1, .f32⟩
  | 34 => ⟨S50000x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S50000, .f32⟩
  | 42 => ⟨S50000x1, .f32⟩
  | 43 => ⟨S_, .f32⟩
  | 44 => ⟨S50000x1, .f32⟩
  | 45 => ⟨S50000x1, .f32⟩
  | 46 => ⟨S50000x128, .f32⟩
  | 47 => ⟨S50000x128, .f32⟩
  | 48 => ⟨S50000x128, .f32⟩
  | 49 => ⟨S_, .f32⟩
  | 50 => ⟨S50000, .f32⟩
  | 51 => ⟨S50000x1, .f32⟩
  | 52 => ⟨S_, .f32⟩
  | 53 => ⟨S50000x1, .f32⟩
  | 54 => ⟨S50000x1, .f32⟩
  | 55 => ⟨S50000x128, .f32⟩
  | 56 => ⟨S50000x128, .f32⟩
  | 57 => ⟨S_, .f32⟩
  | 58 => ⟨S50000x1, .f32⟩
  | 59 => ⟨S50000x1, .f32⟩
  | 60 => ⟨S50000x1, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call0_cst : Ref sig .tc := ⟨.hbm, 104, rfl⟩
abbrev main_call0_v0 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_c_16 : Ref sig .tc := ⟨.hbm, 110, rfl⟩
abbrev main_v80 : Ref sig .tc := ⟨.hbm, 111, rfl⟩
abbrev main_v81 : Ref sig .tc := ⟨.hbm, 112, rfl⟩
abbrev main_c_17 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_18 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_20 : Ref sig .tc := ⟨.hbm, 125, rfl⟩
abbrev main_v91 : Ref sig .tc := ⟨.hbm, 126, rfl⟩
abbrev main_v92 : Ref sig .tc := ⟨.hbm, 127, rfl⟩
abbrev main_c_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_22 : Ref sig .tc := ⟨.hbm, 134, rfl⟩
abbrev main_v98 : Ref sig .tc := ⟨.hbm, 135, rfl⟩
abbrev main_v99 : Ref sig .tc := ⟨.hbm, 136, rfl⟩
abbrev main_c_23 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_24 : Ref sig .tc := ⟨.hbm, 144, rfl⟩
abbrev main_v106 : Ref sig .tc := ⟨.hbm, 145, rfl⟩
abbrev main_v107 : Ref sig .tc := ⟨.hbm, 146, rfl⟩
abbrev main_c_25 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_26 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_27 : Ref sig .tc := ⟨.hbm, 168, rfl⟩
abbrev main_v127 : Ref sig .tc := ⟨.hbm, 169, rfl⟩
abbrev main_v128 : Ref sig .tc := ⟨.hbm, 170, rfl⟩
abbrev main_cst_28 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_29 : Ref sig .tc := ⟨.hbm, 177, rfl⟩
abbrev main_v134 : Ref sig .tc := ⟨.hbm, 178, rfl⟩
abbrev main_v135 : Ref sig .tc := ⟨.hbm, 179, rfl⟩
abbrev main_cst_30 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_cst_31 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_call1_cst : Ref sig .tc := ⟨.hbm, 197, rfl⟩
abbrev main_call1_v0 : Ref sig .tc := ⟨.hbm, 198, rfl⟩
abbrev main_v151 : Ref sig .tc := ⟨.hbm, 199, rfl⟩
abbrev main_v152 : Ref sig .tc := ⟨.hbm, 200, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelRun.lean ====
/-
  The idealized kernel's run with its result named.

  The program is three pipelined regions among three stretches of host operations. Its run is followed segment by
  segment: the buffer contents at each boundary are a fold from the launch memory — a stretch applies its operations,
  a region leaves in each of its arrays what its write-backs leave — and at the end every buffer that is not scoped to
  a region holds the last boundary's contents. The result buffer is one of them: after every weakly fair execution it
  holds the last boundary's contents at that buffer, and the ten argument arrays hold what they were launched with.
-/
import proofs.«140895_j30614526886066_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v78) = W6 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v78 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.RunValue

end
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibRowNorm.lean ====
/-
  Layer normalisation of the rows of a block, followed by a clip at a floor, on the extended reals.

  For one row `a` of length `n`, a bias row `b`, a gain row `g` and an offset row `be`, write `s j = a j + b j`,
  `mean = (∑ j, s j) / cnt`, `d j = s j - mean` and `var = (∑ j, d j · d j) / cnt`. The normalised entry is
  `max (d k · rsqrt (var + eps) · g k + be k) floor`: `normRow`. It depends on the one row only.

  A block of `R` rows computes this for every row at once, with whole-block operations: the bias row repeated down
  the block and added (`shifted`), the row sums taken along the lanes, turned into a column and divided by the count
  (`rowMeans`), that column repeated along the lanes and subtracted (`centred`), the same column operation on the
  squares, the offset `eps` added and the reciprocal square root taken (`rowScales`), and the products, the sum and
  the clip lane by lane (`normBlock`). `normBlock_apply` reads the block at row `r`, lane `k`: it is `normRow` of
  row `r`. Nothing here needs an entry to be finite: every step is the same operation on both sides.
-/
import Idealize.ShloMosaic.Lib.Pipeline.Value
import Idealize.ShloMosaic.Lib.ValueIdx
import Idealize.ShloMosaic.Lib.ValueLayout
import Idealize.ShloMosaic.PureOps.Ideal.Laws
import proofs.«140895_j30614526886066_2_alg».proof.Proof.LibRows
import proofs.«140895_j30614526886066_2_alg».proof.Proof.LibLayout

noncomputable section

open scoped BigOperators

namespace Cert.RowNorm

open Idealize.ShloMosaic Idealize.ShloMosaic.ValueIdx

variable {R n : ℕ}

/-- One row normalised, scaled, shifted and clipped, at lane `k`. -/
def normRow (cnt eps floor : EReal) (a b g be : Fin n → EReal) (k : Fin n) : EReal :=
  max ((a k + b k - Ideal.div (∑ j, (a j + b j)) cnt)
      * Ideal.rsqrt (Ideal.div (∑ j, (a j + b j - Ideal.div (∑ l, (a l + b l)) cnt)
          * (a j + b j - Ideal.div (∑ l, (a l + b l)) cnt)) cnt + eps)
      * g k + be k) floor

/-- The block with the bias row added to each of its rows. -/
def shifted (v0 : FVec Ideal ⟨2, ![R, n]⟩ .f32) (v2 : FVec Ideal ⟨2, ![1, n]⟩ .f32)
    (hs0 : (⟨2, ![R, n]⟩ : Shape).ShapeCasts ⟨2, ![R, n]⟩) (hs1 : (⟨2, ![1, n]⟩ : Shape).ShapeCasts ⟨2, ![1, n]⟩)
    (hb : (⟨2, ![1, n]⟩ : Shape).Broadcasts ⟨2, ![R, n]⟩) : FVec Ideal ⟨2, ![R, n]⟩ .f32 :=
  addf (shapeCast ⟨2, ![R, n]⟩ v0 hs0) (broadcastTo ⟨2, ![R, n]⟩ (shapeCast ⟨2, ![1, n]⟩ v2 hs1) hb)

theorem shifted_apply (v0 : FVec Ideal ⟨2, ![R, n]⟩ .f32) (v2 : FVec Ideal ⟨2, ![1, n]⟩ .f32)
    (hs0 : (⟨2, ![R, n]⟩ : Shape).ShapeCasts ⟨2, ![R, n]⟩) (hs1 : (⟨2, ![1, n]⟩ : Shape).ShapeCasts ⟨2, ![1, n]⟩)
    (hb : (⟨2, ![1, n]⟩ : Shape).Broadcasts ⟨2, ![R, n]⟩) (r : Fin R) (k : Fin n) :
    shifted v0 v2 hs0 hs1 hb (ix2 r k) = v0 (ix2 r k) + v2 (ix2 (0 : Fin 1) k) := by
  unfold shifted
  rw [addf_apply, shapeCast_self, broadcastTo_1b_ab_apply, shapeCast_self]

/-- The column of row means: the lane sums, as a column, divided by the count. -/
def rowMeans (s : FVec Ideal ⟨2, ![R, n]⟩ .f32) (cnt : BitVec 32)
    (hr : (⟨2, ![R, n]⟩ : Shape).Reduces [(1 : Fin 2)] ⟨1, ![R]⟩) (hc : (⟨1, ![R]⟩ : Shape).ShapeCasts ⟨2, ![R, 1]⟩) :
    FVec Ideal ⟨2, ![R, 1]⟩ .f32 :=
  divf (shapeCast ⟨2, ![R, 1]⟩ (multiReduction .add [(1 : Fin 2)] ⟨1, ![R]⟩ s 0x00000000#32 hr (.inl rfl) rfl) hc)
    (broadcast ⟨2, ![R, 1]⟩ (Scalar.ofBits .f32 cnt))

theorem rowMeans_apply (s : FVec Ideal ⟨2, ![R, n]⟩ .f32) (cnt : BitVec 32)
    (hr : (⟨2, ![R, n]⟩ : Shape).Reduces [(1 : Fin 2)] ⟨1, ![R]⟩) (hc : (⟨1, ![R]⟩ : Shape).ShapeCasts ⟨2, ![R, 1]⟩)
    (r : Fin R) (u : Fin 1) :
    rowMeans s cnt hr hc (ix2 r u) = Ideal.div (∑ j : Fin n, s (ix2 r j)) (Ideal.ofBits .f32 cnt) := by
  unfold rowMeans
  rw [divf_apply, Cert.LibLayout.shapeCast_a_a1_apply]
  exact congrArg₂ Ideal.div (Cert.LibRows.rowSum_apply s 0x00000000#32 hr (.inl rfl) rfl r) rfl

/-- The block with each row's mean taken off. -/
def centred (s : FVec Ideal ⟨2, ![R, n]⟩ .f32) (cnt : BitVec 32)
    (hr : (⟨2, ![R, n]⟩ : Shape).Reduces [(1 : Fin 2)] ⟨1, ![R]⟩) (hc : (⟨1, ![R]⟩ : Shape).ShapeCasts ⟨2, ![R, 1]⟩)
    (hcb : (⟨2, ![R, 1]⟩ : Shape).Broadcasts ⟨2, ![R, n]⟩) : FVec Ideal ⟨2, ![R, n]⟩ .f32 :=
  subf s (broadcastTo ⟨2, ![R, n]⟩ (rowMeans s cnt hr hc) hcb)

theorem centred_apply (s : FVec Ideal ⟨2, ![R, n]⟩ .f32) (cnt : BitVec 32)
    (hr : (⟨2, ![R, n]⟩ : Shape).Reduces [(1 : Fin 2)] ⟨1, ![R]⟩) (hc : (⟨1, ![R]⟩ : Shape).ShapeCasts ⟨2, ![R, 1]⟩)
    (hcb : (⟨2, ![R, 1]⟩ : Shape).Broadcasts ⟨2, ![R, n]⟩) (r : Fin R) (k : Fin n) :
    centred s cnt hr hc hcb (ix2 r k) = s (ix2 r k) - Ideal.div (∑ j : Fin n, s (ix2 r j)) (Ideal.ofBits .f32 cnt) := by
  unfold centred
  rw [subf_apply, Cert.LibLayout.broadcastTo_a1_ab_apply, rowMeans_apply]

/-- The column of row scales: the reciprocal square root of the mean square plus `eps`. -/
def rowScales (d : FVec Ideal ⟨2, ![R, n]⟩ .f32) (cnt eps : BitVec 32)
    (hr : (⟨2, ![R, n]⟩ : Shape).Reduces [(1 : Fin 2)] ⟨1, ![R]⟩) (hc : (⟨1, ![R]⟩ : Shape).ShapeCasts ⟨2, ![R, 1]⟩) :
    FVec Ideal ⟨2, ![R, 1]⟩ .f32 :=
  rsqrt (addf (rowMeans (mulf d d) cnt hr hc) (broadcast ⟨2, ![R, 1]⟩ (Scalar.ofBits .f32 eps)))

theorem rowScales_apply (d : FVec Ideal ⟨2, ![R, n]⟩ .f32) (cnt eps : BitVec 32)
    (hr : (⟨2, ![R, n]⟩ : Shape).Reduces [(1 : Fin 2)] ⟨1, ![R]⟩) (hc : (⟨1, ![R]⟩ : Shape).ShapeCasts ⟨2, ![R, 1]⟩)
    (r : Fin R) (u : Fin 1) :
    rowScales d cnt eps hr hc (ix2 r u)
      = Ideal.rsqrt (Ideal.div (∑ j : Fin n, d (ix2 r j) * d (ix2 r j)) (Ideal.ofBits .f32 cnt) + Ideal.ofBits .f32 eps) := by
  unfold rowScales
  show Ideal.rsqrt (addf (rowMeans (mulf d d) cnt hr hc) (broadcast ⟨2, ![R, 1]⟩ (Scalar.ofBits .f32 eps)) (ix2 r u)) = _
  rw [addf_apply, rowMeans_apply, broadcast_apply]
  rfl

/-- The block normalised row by row, scaled by the gain row, shifted by the offset row and clipped at `floor`. -/
def normBlock (v0 : FVec Ideal ⟨2, ![R, n]⟩ .f32) (v2 v22 v26 : FVec Ideal ⟨2, ![1, n]⟩ .f32) (cnt eps floor : BitVec 32)
    (hs0 : (⟨2, ![R, n]⟩ : Shape).ShapeCasts ⟨2, ![R, n]⟩) (hs1 : (⟨2, ![1, n]⟩ : Shape).ShapeCasts ⟨2, ![1, n]⟩)
    (hb : (⟨2, ![1, n]⟩ : Shape).Broadcasts ⟨2, ![R, n]⟩)
    (hr : (⟨2, ![R, n]⟩ : Shape).Reduces [(1 : Fin 2)] ⟨1, ![R]⟩) (hc : (⟨1, ![R]⟩ : Shape).ShapeCasts ⟨2, ![R, 1]⟩)
    (hcb : (⟨2, ![R, 1]⟩ : Shape).Broadcasts ⟨2, ![R, n]⟩) : FVec Ideal ⟨2, ![R, n]⟩ .f32 :=
  maximumf
    (addf
      (mulf
        (mulf (centred (shifted v0 v2 hs0 hs1 hb) cnt hr hc hcb)
          (broadcastTo ⟨2, ![R, n]⟩ (rowScales (centred (shifted v0 v2 hs0 hs1 hb) cnt hr hc hcb) cnt eps hr hc) hcb))
        (broadcastTo ⟨2, ![R, n]⟩ (shapeCast ⟨2, ![1, n]⟩ v22 hs1) hb))
      (broadcastTo ⟨2, ![R, n]⟩ (shapeCast ⟨2, ![1, n]⟩ v26 hs1) hb))
    (broadcast ⟨2, ![R, n]⟩ (Scalar.ofBits .f32 floor))

/-- The normalised block at row `r`, lane `k`, is the normalised row `r` at lane `k`. -/
theorem normBlock_apply (v0 : FVec Ideal ⟨2, ![R, n]⟩ .f32) (v2 v22 v26 : FVec Ideal ⟨2, ![1, n]⟩ .f32) (cnt eps floor : BitVec 32)
    (hs0 : (⟨2, ![R, n]⟩ : Shape).ShapeCasts ⟨2, ![R, n]⟩) (hs1 : (⟨2, ![1, n]⟩ : Shape).ShapeCasts ⟨2, ![1, n]⟩)
    (hb : (⟨2, ![1, n]⟩ : Shape).Broadcasts ⟨2, ![R, n]⟩)
    (hr : (⟨2, ![R, n]⟩ : Shape).Reduces [(1 : Fin 2)] ⟨1, ![R]⟩) (hc : (⟨1, ![R]⟩ : Shape).ShapeCasts ⟨2, ![R, 1]⟩)
    (hcb : (⟨2, ![R, 1]⟩ : Shape).Broadcasts ⟨2, ![R, n]⟩) (r : Fin R) (k : Fin n) :
    normBlock v0 v2 v22 v26 cnt eps floor hs0 hs1 hb hr hc hcb (ix2 r k)
      = normRow (Ideal.ofBits .f32 cnt) (Ideal.ofBits .f32 eps) (Ideal.ofBits .f32 floor)
          (fun j => v0 (ix2 r j)) (fun j => v2 (ix2 (0 : Fin 1) j)) (fun j => v22 (ix2 (0 : Fin 1) j))
          (fun j => v26 (ix2 (0 : Fin 1) j)) k := by
  unfold normBlock normRow
  rw [maximumf_apply, addf_apply, mulf_apply, mulf_apply, centred_apply, Cert.LibLayout.broadcastTo_a1_ab_apply,
    rowScales_apply, broadcastTo_1b_ab_apply, shapeCast_self, broadcastTo_1b_ab_apply, shapeCast_self, broadcast_apply]
  simp only [centred_apply, shifted_apply]
  rfl

end Cert.RowNorm

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.KernelBlocks.lean ====
/-
  What one grid point of each of the three kernels computes, read at a row and a lane of its block.

  A point works on a block of 2000 rows of 128 lanes. On the extended reals a change of float format is the identity
  and a matrix unit's product into a zero accumulator is the sum over the contracted position, so:
  * the first kernel's block is the product rows by columns of its block of the input with the weight array;
  * the second kernel's block is that product applied to the normalised block — each row shifted by the bias row,
    centred, scaled by the reciprocal root of its mean square plus the offset, multiplied by the gain row, shifted,
    clipped at zero;
  * the third kernel's block is the normalised block plus the residual block, lane by lane.
  In each, row `r` of the result depends on row `r` of the block only.
-/
import proofs.«140895_j30614526886066_2_alg».proof.Proof.Gen.KernelIdeal.Skeleton
import proofs.«140895_j30614526886066_2_alg».proof.Proof.LibRowNorm
import proofs.«140895_j30614526886066_2_alg».proof.Proof.LibPlainProduct

noncomputable section

open scoped BigOperators

namespace Cert.KernelIdeal.Blocks

open Cert.KernelIdeal Cert.KernelIdeal.Gen
open Idealize.ShloMosaic Idealize.ShloMosaic.ValueIdx Idealize.ShloMosaic.PlainProduct

/-- The kernels' contraction: the left operand's lanes against the right operand's rows. -/
theorem dot_plain : dot_S2000x128_S128x128_S2000x128_1_0_0_1_n_n = DotDims.plain 2000 128 128 := rfl

/-- The normalised block of a point's loads, as the block function of the specification. -/
abbrev normOf (v0 : Vec Ideal S2000x128 .f32) (v2 v22 v26 : Vec Ideal S1x128 .f32) : FVec Ideal S2000x128 .f32 :=
  Cert.RowNorm.normBlock (R := 2000) (n := 128) v0 v2 v22 v26 0x43000000#32 0x3727C5AC#32 0x00000000#32 shapeCasts_S2000x128_S2000x128 shapeCasts_S1x128_S1x128 broadcasts_S1x128_S2000x128 reduces_S2000x128_S2000 shapeCasts_S2000_S2000x1 broadcasts_S2000x1_S2000x128

/-- First kernel: entry `(r, c)` of the block is `∑ k, x (r, k) · w (k, c)`. -/
theorem pay0_apply (v0 : Vec Ideal S2000x128 .f32) (v2 : Vec Ideal S128x128 .f32) (r : Fin 2000) (c : Fin 128) :
    k0_pay1 (F := Ideal) v0 v2 (ix2 r c) = ∑ k : Fin 128, v0 (ix2 r k) * v2 (ix2 k c) :=
  congrFun (matmul_zero_plain (M := 2000) (K := 128) (N := 128) none
    (truncf .bf16 v0 bitsLt_bf16_f32) (truncf .bf16 v2 bitsLt_bf16_f32)) (ix2 r c)

/-- Second kernel: entry `(r, c)` of the block is `∑ k, y (r, k) · w (k, c)` with `y` the normalised block. -/
theorem pay1_apply (v0 : Vec Ideal S2000x128 .f32) (v2 v22 v26 : Vec Ideal S1x128 .f32) (v33 : Vec Ideal S128x128 .f32)
    (r : Fin 2000) (c : Fin 128) :
    k1_pay1 (F := Ideal) v0 v2 v22 v26 v33 (ix2 r c)
      = ∑ k : Fin 128, Cert.RowNorm.normRow (Ideal.ofBits .f32 0x43000000#32) (Ideal.ofBits .f32 0x3727C5AC#32) (Ideal.ofBits .f32 0x00000000#32)
          (fun j => v0 (ix2 r j)) (fun j => v2 (ix2 (0 : Fin 1) j)) (fun j => v22 (ix2 (0 : Fin 1) j))
          (fun j => v26 (ix2 (0 : Fin 1) j)) k * v33 (ix2 k c) := by
  refine (congrFun (matmul_zero_plain (M := 2000) (K := 128) (N := 128) none
    (truncf .bf16 (normOf v0 v2 v22 v26) bitsLt_bf16_f32) (truncf .bf16 v33 bitsLt_bf16_f32)) (ix2 r c)).trans ?_
  show ∑ k : Fin 128, normOf v0 v2 v22 v26 (ix2 r k) * v33 (ix2 k c) = _
  exact Finset.sum_congr rfl fun k _ => by
    rw [show normOf v0 v2 v22 v26 (ix2 r k) = _ from Cert.RowNorm.normBlock_apply (R := 2000) (n := 128) v0 v2 v22 v26 0x43000000#32 0x3727C5AC#32 0x00000000#32 shapeCasts_S2000x128_S2000x128 shapeCasts_S1x128_S1x128 broadcasts_S1x128_S2000x128 reduces_S2000x128_S2000 shapeCasts_S2000_S2000x1 broadcasts_S2000x1_S2000x128 r k]

/-- Third kernel: entry `(r, k)` of the block is the normalised row `r` at lane `k` plus the residual's entry. -/
theorem pay2_apply (v0 : Vec Ideal S2000x128 .f32) (v2 v22 v26 : Vec Ideal S1x128 .f32) (v32 : Vec Ideal S2000x128 .f32)
    (r : Fin 2000) (k : Fin 128) :
    k2_pay1 (F := Ideal) v0 v2 v22 v26 v32 (ix2 r k)
      = Cert.RowNorm.normRow (Ideal.ofBits .f32 0x43000000#32) (Ideal.ofBits .f32 0x3727C5AC#32) (Ideal.ofBits .f32 0x00000000#32)
          (fun j => v0 (ix2 r j)) (fun j => v2 (ix2 (0 : Fin 1) j)) (fun j => v22 (ix2 (0 : Fin 1) j))
          (fun j => v26 (ix2 (0 : Fin 1) j)) k + v32 (ix2 r k) := by
  show normOf v0 v2 v22 v26 (ix2 r k) + v32 (ix2 r k) = _
  rw [show normOf v0 v2 v22 v26 (ix2 r k) = _ from Cert.RowNorm.normBlock_apply (R := 2000) (n := 128) v0 v2 v22 v26 0x43000000#32 0x3727C5AC#32 0x00000000#32 shapeCasts_S2000x128_S2000x128 shapeCasts_S1x128_S1x128 broadcasts_S1x128_S2000x128 reduces_S2000x128_S2000 shapeCasts_S2000_S2000x1 broadcasts_S2000x1_S2000x128 r k]

end Cert.KernelIdeal.Blocks

end
-- ==== Proof.KernelRegion0.lean ====
/-
  Region 0 of the idealized kernel: from the blocks its grid points write back to the array it leaves.

  The region's grid has 25 points; point `t` works on rows `2000 · t … 2000 · t + 1999` of the row-tiled arrays and
  on the whole of the parameter rows and the weight array. Because the block computation of a row reads that row only,
  what a point writes back is the same rows of ONE whole-array function, and because the 25 row blocks cover the
  50000 rows, the array the region leaves is that function.
-/
import proofs.«140895_j30614526886066_2_alg».proof.Proof.Gen.KernelIdeal.Frame
import proofs.«140895_j30614526886066_2_alg».proof.Proof.KernelBlocks

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps, decided over the grid's 25 points: a row-tiled window moves with the output window down
    the rows and stays at lane block 0; a parameter or weight window stays at block (0, 0); the output's row block is
    at most 24. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every row block of the array is some point's. -/
theorem idx_onto0 : ∀ q : Fin 25, ∃ t : Fin cfg0.N, win0_2.index t = ![q.val, 0] :=
  (by decide +kernel : ∀ q : Fin 25, ∃ t : Fin grid0.N, win0_2.index t = ![q.val, 0])

/-- The dot of two rows of 128 extended reals. -/
def dotRow (a b : Fin 128 → EReal) : EReal := ∑ k : Fin 128, a k * b k

/-- What point `t` writes back is block `t` of any whole-array function `G` whose entry at `(R, cc)` is the dot of row
    `R` of the left array with column `cc` of the right array, the two arrays being what the region finds in its input
    windows' buffers: the block's row `r` is array row `2000 · (block index) + r`, and a row of a product reads that
    row of the left operand only. -/
theorem flushed0 (c : Dev nD) (t : Fin cfg0.N) (A : S50000x128.Idx → EReal) (B : S128x128.Idx → EReal)
    (hA : V c main_arg0 = A) (hB : V c main_arg2 = B) (G : S50000x128.Idx → EReal)
    (hG : ∀ (R : Fin 50000) (cc : Fin 128), G (ix2 R cc) = dotRow (fun k => A (ix2 R k)) (fun k => B (ix2 k cc))) :
    (dat0 V c).flushed 2 t = ((cfg0.win 2).blk t).view.read (Elt Ideal) G := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨f0, f1, f2, f3, f4, f5⟩ := idx_facts0 t
  funext j
  obtain ⟨r, cc, rfl⟩ : ∃ (r : Fin 2000) (cc : Fin 128), j = ix2 r cc := ⟨j 0, j 1, eq_ix2 (n0 := 2000) (n1 := 128) j⟩
  have hR : win0_2.index t (0 : Fin 2) * 2000 + r.val < 50000 := by have := r.isLt; omega
  have eo : ((cfg0.win 2).blk t).view.emb (ix2 r cc) = ix2 (⟨win0_2.index t (0 : Fin 2) * 2000 + r.val, hR⟩ : Fin 50000) cc := by
    funext a; apply Fin.ext
    match a with
    | ⟨0, _⟩ => show win0_2.index t (0 : Fin 2) * 2000 + 1 * r.val = win0_2.index t (0 : Fin 2) * 2000 + r.val; omega
    | ⟨1, _⟩ => show win0_2.index t (1 : Fin 2) * 128 + 1 * cc.val = cc.val; omega
  have e0 : ∀ k : Fin 128, ((cfg0.win 0).blk t).view.emb (ix2 r k) = ix2 (⟨win0_2.index t (0 : Fin 2) * 2000 + r.val, hR⟩ : Fin 50000) k := fun k => by
    funext a; apply Fin.ext
    match a with
    | ⟨0, _⟩ => show win0_0.index t (0 : Fin 2) * 2000 + 1 * r.val = win0_2.index t (0 : Fin 2) * 2000 + r.val; omega
    | ⟨1, _⟩ => show win0_0.index t (1 : Fin 2) * 128 + 1 * k.val = k.val; omega
  have e1 : ∀ k : Fin 128, ((cfg0.win 1).blk t).view.emb (ix2 k cc) = ix2 k cc := fun k => by
    funext a; apply Fin.ext
    match a with
    | ⟨0, _⟩ => show win0_1.index t (0 : Fin 2) * 128 + 1 * k.val = k.val; omega
    | ⟨1, _⟩ => show win0_1.index t (1 : Fin 2) * 128 + 1 * cc.val = cc.val; omega
  have b0 : (fun k : Fin 128 => (iblk0 V c 0 t (ix2 r k) : EReal)) = fun k => A (ix2 (⟨win0_2.index t (0 : Fin 2) * 2000 + r.val, hR⟩ : Fin 50000) k) := funext fun k =>
    (show V c main_arg0 (((cfg0.win 0).blk t).view.emb (ix2 r k)) = _ from congrArg (V c main_arg0) (e0 k)).trans (congrFun hA _)
  have b1 : (fun k : Fin 128 => (iblk0 V c 1 t (ix2 k cc) : EReal)) = fun k => B (ix2 k cc) := funext fun k =>
    (show V c main_arg2 (((cfg0.win 1).blk t).view.emb (ix2 k cc)) = _ from congrArg (V c main_arg2) (e1 k)).trans (congrFun hB _)
  refine (Blocks.pay0_apply (iblk0 V c 0 t) (iblk0 V c 1 t) r cc).trans ?_
  show dotRow (fun k => iblk0 V c 0 t (ix2 r k)) (fun k => iblk0 V c 1 t (ix2 k cc)) = G (((cfg0.win 2).blk t).view.emb (ix2 r cc))
  rw [eo, hG, b0, b1]

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- The 25 row blocks cover the array: row `R` is in the block of the point whose row block is `R / 2000`. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The array after the region is `G`. -/
theorem final0 (c : Dev nD) (A : S50000x128.Idx → EReal) (B : S128x128.Idx → EReal)
    (hA : V c main_arg0 = A) (hB : V c main_arg2 = B) (G : S50000x128.Idx → EReal)
    (hG : ∀ (R : Fin 50000) (cc : Fin 128), G (ix2 R cc) = dotRow (fun k => A (ix2 R k)) (fun k => B (ix2 k cc))) :
    (dat0 V c).arrAt 2 cfg0.N = G :=
  (dat0 V c).arrAt_eq_of_cover 2 G (fun t _ => flushed0 V c t A B hA hB G hG) cover0

end Cert.KernelIdeal.Region0

end
-- ==== Proof.KernelRegion1.lean ====
/-
  Region 1 of the idealized kernel: from the blocks its grid points write back to the array it leaves.

  The region's grid has 25 points; point `t` works on rows `2000 · t … 2000 · t + 1999` of the row-tiled arrays and
  on the whole of the parameter rows and the weight array. Because the block computation of a row reads that row only,
  what a point writes back is the same rows of ONE whole-array function, and because the 25 row blocks cover the
  50000 rows, the array the region leaves is that function.
-/
import proofs.«140895_j30614526886066_2_alg».proof.Proof.Gen.KernelIdeal.Frame
import proofs.«140895_j30614526886066_2_alg».proof.Proof.KernelBlocks

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 1 -/

/-- The printed index maps, decided over the grid's 25 points: a row-tiled window moves with the output window down
    the rows and stays at lane block 0; a parameter or weight window stays at block (0, 0); the output's row block is
    at most 24. -/
theorem idx_facts1 : ∀ t : Fin cfg1.N, win1_0.index t (0 : Fin 2) = win1_5.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (1 : Fin 2) = 0
    ∧ win1_5.index t (0 : Fin 2) ≤ 24 :=
  (by decide +kernel : ∀ t : Fin grid1.N, _)

/-- Every row block of the array is some point's. -/
theorem idx_onto1 : ∀ q : Fin 25, ∃ t : Fin cfg1.N, win1_5.index t = ![q.val, 0] :=
  (by decide +kernel : ∀ q : Fin 25, ∃ t : Fin grid1.N, win1_5.index t = ![q.val, 0])

/-- What point `t` writes back is block `t` of any whole-array function `G` whose entry at `(R, cc)` is the block
    computation read at row `R` of the arrays as the region finds them: the block's row `r` is array row
    `2000 · (block index) + r`, and the computation of a row reads that row only. -/
theorem flushed1 (c : Dev nD) (t : Fin cfg1.N) (G : S50000x128.Idx → EReal)
    (hG : ∀ (R : Fin 50000) (cc : Fin 128), G (ix2 R cc) = ∑ k : Fin 128, Cert.RowNorm.normRow (Ideal.ofBits .f32 0x43000000#32) (Ideal.ofBits .f32 0x3727C5AC#32) (Ideal.ofBits .f32 0x00000000#32) (fun j => V c main_v51 (ix2 R j)) (fun j => V c main_v52 (ix2 (0 : Fin 1) j)) (fun j => V c main_v53 (ix2 (0 : Fin 1) j)) (fun j => V c main_v54 (ix2 (0 : Fin 1) j)) k * V c main_arg6 (ix2 k cc)) :
    (dat1 V c).flushed 5 t = ((cfg1.win 5).blk t).view.read (Elt Ideal) G := by
  show (cfg1.win 5).cut (grid1.coords t) ((dat1 V c).after 5 t) = _
  rw [after1_5]
  unfold out1_5
  rw [View.canon_unit_zero hz]
  simp only [View.ld_unit_zero (S := S2000x128) hz, View.ld_unit_zero (S := S1x128) hz, View.ld_unit_zero (S := S128x128) hz]
  obtain ⟨f0, f1, f2, f3, f4, f5, f6, f7, f8, f9, f10, f11⟩ := idx_facts1 t
  funext j
  obtain ⟨r, cc, rfl⟩ : ∃ (r : Fin 2000) (cc : Fin 128), j = ix2 r cc := ⟨j 0, j 1, eq_ix2 (n0 := 2000) (n1 := 128) j⟩
  have hR : win1_5.index t (0 : Fin 2) * 2000 + r.val < 50000 := by have := r.isLt; omega
  have eo : ((cfg1.win 5).blk t).view.emb (ix2 r cc) = ix2 (⟨win1_5.index t (0 : Fin 2) * 2000 + r.val, hR⟩ : Fin 50000) cc := by
    funext a; apply Fin.ext
    match a with
    | ⟨0, _⟩ => show win1_5.index t (0 : Fin 2) * 2000 + 1 * r.val = win1_5.index t (0 : Fin 2) * 2000 + r.val; omega
    | ⟨1, _⟩ => show win1_5.index t (1 : Fin 2) * 128 + 1 * cc.val = cc.val; omega
  have e0 : ∀ k : Fin 128, ((cfg1.win 0).blk t).view.emb (ix2 r k) = ix2 (⟨win1_5.index t (0 : Fin 2) * 2000 + r.val, hR⟩ : Fin 50000) k := fun k => by
    funext a; apply Fin.ext
    match a with
    | ⟨0, _⟩ => show win1_0.index t (0 : Fin 2) * 2000 + 1 * r.val = win1_5.index t (0 : Fin 2) * 2000 + r.val; omega
    | ⟨1, _⟩ => show win1_0.index t (1 : Fin 2) * 128 + 1 * k.val = k.val; omega
  have e1 : ∀ k : Fin 128, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have e2 : ∀ k : Fin 128, ((cfg1.win 2).blk t).view.emb (ix2 (0 : Fin 1) k) = ix2 (0 : Fin 1) k := fun k => by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have e3 : ∀ k : Fin 128, ((cfg1.win 3).blk t).view.emb (ix2 (0 : Fin 1) k) = ix2 (0 : Fin 1) k := fun k => by
    funext a; apply Fin.ext
    match a with
    | ⟨0, _⟩ => show win1_3.index t (0 : Fin 2) * 1 + 1 * 0 = 0; omega
    | ⟨1, _⟩ => show win1_3.index t (1 : Fin 2) * 128 + 1 * k.val = k.val; omega
  have e4 : ∀ k : Fin 128, ((cfg1.win 4).blk t).view.emb (ix2 k cc) = ix2 k cc := fun k => by
    funext a; apply Fin.ext
    match a with
    | ⟨0, _⟩ => show win1_4.index t (0 : Fin 2) * 128 + 1 * k.val = k.val; omega
    | ⟨1, _⟩ => show win1_4.index t (1 : Fin 2) * 128 + 1 * cc.val = cc.val; omega
  have b0 : ∀ k : Fin 128, iblk1 V c 0 t (ix2 r k) = V c main_v51 (ix2 (⟨win1_5.index t (0 : Fin 2) * 2000 + r.val, hR⟩ : Fin 50000) k) := fun k =>
    show V c main_v51 (((cfg1.win 0).blk t).view.emb (ix2 r k)) = _ from congrArg (V c main_v51) (e0 k)
  have b1 : ∀ k : Fin 128, iblk1 V c 1 t (ix2 (0 : Fin 1) k) = V c main_v52 (ix2 (0 : Fin 1) k) := fun k =>
    show V c main_v52 (((cfg1.win 1).blk t).view.emb (ix2 (0 : Fin 1) k)) = _ from congrArg (V c main_v52) (e1 k)
  have b2 : ∀ k : Fin 128, iblk1 V c 2 t (ix2 (0 : Fin 1) k) = V c main_v53 (ix2 (0 : Fin 1) k) := fun k =>
    show V c main_v53 (((cfg1.win 2).blk t).view.emb (ix2 (0 : Fin 1) k)) = _ from congrArg (V c main_v53) (e2 k)
  have b3 : ∀ k : Fin 128, iblk1 V c 3 t (ix2 (0 : Fin 1) k) = V c main_v54 (ix2 (0 : Fin 1) k) := fun k =>
    show V c main_v54 (((cfg1.win 3).blk t).view.emb (ix2 (0 : Fin 1) k)) = _ from congrArg (V c main_v54) (e3 k)
  have b4 : ∀ k : Fin 128, iblk1 V c 4 t (ix2 k cc) = V c main_arg6 (ix2 k cc) := fun k =>
    show V c main_arg6 (((cfg1.win 4).blk t).view.emb (ix2 k cc)) = _ from congrArg (V c main_arg6) (e4 k)
  refine (Blocks.pay1_apply (iblk1 V c 0 t) (iblk1 V c 1 t) (iblk1 V c 2 t) (iblk1 V c 3 t) (iblk1 V c 4 t) r cc).trans ?_
  show ∑ k : Fin 128, Cert.RowNorm.normRow (Ideal.ofBits .f32 0x43000000#32) (Ideal.ofBits .f32 0x3727C5AC#32) (Ideal.ofBits .f32 0x00000000#32) (fun j => iblk1 V c 0 t (ix2 r j)) (fun j => iblk1 V c 1 t (ix2 (0 : Fin 1) j)) (fun j => iblk1 V c 2 t (ix2 (0 : Fin 1) j)) (fun j => iblk1 V c 3 t (ix2 (0 : Fin 1) j)) k * iblk1 V c 4 t (ix2 k cc) = G (((cfg1.win 5).blk t).view.emb (ix2 r cc))
  rw [eo, hG]
  simp only [b0, b1, b2, b3, b4]

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v55).slice (win1_5.rect t)).set ↔ _
  rw [View.set_slice_whole, Rect.mem_set_unit]
  exact Iff.rfl

/-- The 25 row blocks cover the array: row `R` is in the block of the point whose row block is `R / 2000`. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The array after the region is `G`. -/
theorem final1 (c : Dev nD) (G : S50000x128.Idx → EReal)
    (hG : ∀ (R : Fin 50000) (cc : Fin 128), G (ix2 R cc) = ∑ k : Fin 128, Cert.RowNorm.normRow (Ideal.ofBits .f32 0x43000000#32) (Ideal.ofBits .f32 0x3727C5AC#32) (Ideal.ofBits .f32 0x00000000#32) (fun j => V c main_v51 (ix2 R j)) (fun j => V c main_v52 (ix2 (0 : Fin 1) j)) (fun j => V c main_v53 (ix2 (0 : Fin 1) j)) (fun j => V c main_v54 (ix2 (0 : Fin 1) j)) k * V c main_arg6 (ix2 k cc)) :
    (dat1 V c).arrAt 5 cfg1.N = G :=
  (dat1 V c).arrAt_eq_of_cover 5 G (fun t _ => flushed1 V c t G hG) cover1

end Cert.KernelIdeal.Region1

end
-- ==== Proof.KernelRegion2.lean ====
/-
  Region 2 of the idealized kernel: from the blocks its grid points write back to the array it leaves.

  The region's grid has 25 points; point `t` works on rows `2000 · t … 2000 · t + 1999` of the row-tiled arrays and
  on the whole of the parameter rows and the weight array. Because the block computation of a row reads that row only,
  what a point writes back is the same rows of ONE whole-array function, and because the 25 row blocks cover the
  50000 rows, the array the region leaves is that function.
-/
import proofs.«140895_j30614526886066_2_alg».proof.Proof.Gen.KernelIdeal.Frame
import proofs.«140895_j30614526886066_2_alg».proof.Proof.KernelBlocks

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 2 -/

/-- The printed index maps, decided over the grid's 25 points: a row-tiled window moves with the output window down
    the rows and stays at lane block 0; a parameter or weight window stays at block (0, 0); the output's row block is
    at most 24. -/
theorem idx_facts2 : ∀ t : Fin cfg2.N, win2_0.index t (0 : Fin 2) = win2_5.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = win2_5.index t (0 : Fin 2)
    ∧ win2_4.index t (1 : Fin 2) = 0
    ∧ win2_5.index t (1 : Fin 2) = 0
    ∧ win2_5.index t (0 : Fin 2) ≤ 24 :=
  (by decide +kernel : ∀ t : Fin grid2.N, _)

/-- Every row block of the array is some point's. -/
theorem idx_onto2 : ∀ q : Fin 25, ∃ t : Fin cfg2.N, win2_5.index t = ![q.val, 0] :=
  (by decide +kernel : ∀ q : Fin 25, ∃ t : Fin grid2.N, win2_5.index t = ![q.val, 0])

/-- What point `t` writes back is block `t` of any whole-array function `G` whose entry at `(R, cc)` is the block
    computation read at row `R` of the arrays as the region finds them: the block's row `r` is array row
    `2000 · (block index) + r`, and the computation of a row reads that row only. -/
theorem flushed2 (c : Dev nD) (t : Fin cfg2.N) (G : S50000x128.Idx → EReal)
    (hG : ∀ (R : Fin 50000) (cc : Fin 128), G (ix2 R cc) = Cert.RowNorm.normRow (Ideal.ofBits .f32 0x43000000#32) (Ideal.ofBits .f32 0x3727C5AC#32) (Ideal.ofBits .f32 0x00000000#32) (fun j => V c main_v74 (ix2 R j)) (fun j => V c main_v75 (ix2 (0 : Fin 1) j)) (fun j => V c main_v76 (ix2 (0 : Fin 1) j)) (fun j => V c main_v77 (ix2 (0 : Fin 1) j)) cc + V c main_arg0 (ix2 R cc)) :
    (dat2 V c).flushed 5 t = ((cfg2.win 5).blk t).view.read (Elt Ideal) G := by
  show (cfg2.win 5).cut (grid2.coords t) ((dat2 V c).after 5 t) = _
  rw [after2_5]
  unfold out2_5
  rw [View.canon_unit_zero hz]
  simp only [View.ld_unit_zero (S := S2000x128) hz, View.ld_unit_zero (S := S1x128) hz]
  obtain ⟨f0, f1, f2, f3, f4, f5, f6, f7, f8, f9, f10, f11⟩ := idx_facts2 t
  funext j
  obtain ⟨r, cc, rfl⟩ : ∃ (r : Fin 2000) (cc : Fin 128), j = ix2 r cc := ⟨j 0, j 1, eq_ix2 (n0 := 2000) (n1 := 128) j⟩
  have hR : win2_5.index t (0 : Fin 2) * 2000 + r.val < 50000 := by have := r.isLt; omega
  have eo : ((cfg2.win 5).blk t).view.emb (ix2 r cc) = ix2 (⟨win2_5.index t (0 : Fin 2) * 2000 + r.val, hR⟩ : Fin 50000) cc := by
    funext a; apply Fin.ext
    match a with
    | ⟨0, _⟩ => show win2_5.index t (0 : Fin 2) * 2000 + 1 * r.val = win2_5.index t (0 : Fin 2) * 2000 + r.val; omega
    | ⟨1, _⟩ => show win2_5.index t (1 : Fin 2) * 128 + 1 * cc.val = cc.val; omega
  have e0 : ∀ k : Fin 128, ((cfg2.win 0).blk t).view.emb (ix2 r k) = ix2 (⟨win2_5.index t (0 : Fin 2) * 2000 + r.val, hR⟩ : Fin 50000) k := fun k => by
    funext a; apply Fin.ext
    match a with
    | ⟨0, _⟩ => show win2_0.index t (0 : Fin 2) * 2000 + 1 * r.val = win2_5.index t (0 : Fin 2) * 2000 + r.val; omega
    | ⟨1, _⟩ => show win2_0.index t (1 : Fin 2) * 128 + 1 * k.val = k.val; omega
  have e1 : ∀ k : Fin 128, ((cfg2.win 1).blk t).view.emb (ix2 (0 : Fin 1) k) = ix2 (0 : Fin 1) k := fun k => by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have e2 : ∀ k : Fin 128, ((cfg2.win 2).blk t).view.emb (ix2 (0 : Fin 1) k) = ix2 (0 : Fin 1) k := fun k => by
    funext a; apply Fin.ext
    match a with
    | ⟨0, _⟩ => show win2_2.index t (0 : Fin 2) * 1 + 1 * 0 = 0; omega
    | ⟨1, _⟩ => show win2_2.index t (1 : Fin 2) * 128 + 1 * k.val = k.val; omega
  have e3 : ∀ k : Fin 128, ((cfg2.win 3).blk t).view.emb (ix2 (0 : Fin 1) k) = ix2 (0 : Fin 1) k := fun k => by
    funext a; apply Fin.ext
    match a with
    | ⟨0, _⟩ => show win2_3.index t (0 : Fin 2) * 1 + 1 * 0 = 0; omega
    | ⟨1, _⟩ => show win2_3.index t (1 : Fin 2) * 128 + 1 * k.val = k.val; omega
  have e4 : ∀ k : Fin 128, ((cfg2.win 4).blk t).view.emb (ix2 r k) = ix2 (⟨win2_5.index t (0 : Fin 2) * 2000 + r.val, hR⟩ : Fin 50000) k := fun k => by
    funext a; apply Fin.ext
    match a with
    | ⟨0, _⟩ => show win2_4.index t (0 : Fin 2) * 2000 + 1 * r.val = win2_5.index t (0 : Fin 2) * 2000 + r.val; omega
    | ⟨1, _⟩ => show win2_4.index t (1 : Fin 2) * 128 + 1 * k.val = k.val; omega
  have b0 : ∀ k : Fin 128, iblk2 V c 0 t (ix2 r k) = V c main_v74 (ix2 (⟨win2_5.index t (0 : Fin 2) * 2000 + r.val, hR⟩ : Fin 50000) k) := fun k =>
    show V c main_v74 (((cfg2.win 0).blk t).view.emb (ix2 r k)) = _ from congrArg (V c main_v74) (e0 k)
  have b1 : ∀ k : Fin 128, iblk2 V c 1 t (ix2 (0 : Fin 1) k) = V c main_v75 (ix2 (0 : Fin 1) k) := fun k =>
    show V c main_v75 (((cfg2.win 1).blk t).view.emb (ix2 (0 : Fin 1) k)) = _ from congrArg (V c main_v75) (e1 k)
  have b2 : ∀ k : Fin 128, iblk2 V c 2 t (ix2 (0 : Fin 1) k) = V c main_v76 (ix2 (0 : Fin 1) k) := fun k =>
    show V c main_v76 (((cfg2.win 2).blk t).view.emb (ix2 (0 : Fin 1) k)) = _ from congrArg (V c main_v76) (e2 k)
  have b3 : ∀ k : Fin 128, iblk2 V c 3 t (ix2 (0 : Fin 1) k) = V c main_v77 (ix2 (0 : Fin 1) k) := fun k =>
    show V c main_v77 (((cfg2.win 3).blk t).view.emb (ix2 (0 : Fin 1) k)) = _ from congrArg (V c main_v77) (e3 k)
  have b4 : ∀ k : Fin 128, iblk2 V c 4 t (ix2 r k) = V c main_arg0 (ix2 (⟨win2_5.index t (0 : Fin 2) * 2000 + r.val, hR⟩ : Fin 50000) k) := fun k =>
    show V c main_arg0 (((cfg2.win 4).blk t).view.emb (ix2 r k)) = _ from congrArg (V c main_arg0) (e4 k)
  refine (Blocks.pay2_apply (iblk2 V c 0 t) (iblk2 V c 1 t) (iblk2 V c 2 t) (iblk2 V c 3 t) (iblk2 V c 4 t) r cc).trans ?_
  show Cert.RowNorm.normRow (Ideal.ofBits .f32 0x43000000#32) (Ideal.ofBits .f32 0x3727C5AC#32) (Ideal.ofBits .f32 0x00000000#32) (fun j => iblk2 V c 0 t (ix2 r j)) (fun j => iblk2 V c 1 t (ix2 (0 : Fin 1) j)) (fun j => iblk2 V c 2 t (ix2 (0 : Fin 1) j)) (fun j => iblk2 V c 3 t (ix2 (0 : Fin 1) j)) cc + iblk2 V c 4 t (ix2 r cc) = G (((cfg2.win 5).blk t).view.emb (ix2 r cc))
  rw [eo, hG]
  simp only [b0, b1, b2, b3, b4]

/-- An index of the array is in point `t`'s block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v78).slice (win2_5.rect t)).set ↔ _
  rw [View.set_slice_whole, Rect.mem_set_unit]
  exact Iff.rfl

/-- The 25 row blocks cover the array: row `R` is in the block of the point whose row block is `R / 2000`. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto2 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The array after the region is `G`. -/
theorem final2 (c : Dev nD) (G : S50000x128.Idx → EReal)
    (hG : ∀ (R : Fin 50000) (cc : Fin 128), G (ix2 R cc) = Cert.RowNorm.normRow (Ideal.ofBits .f32 0x43000000#32) (Ideal.ofBits .f32 0x3727C5AC#32) (Ideal.ofBits .f32 0x00000000#32) (fun j => V c main_v74 (ix2 R j)) (fun j => V c main_v75 (ix2 (0 : Fin 1) j)) (fun j => V c main_v76 (ix2 (0 : Fin 1) j)) (fun j => V c main_v77 (ix2 (0 : Fin 1) j)) cc + V c main_arg0 (ix2 R cc)) :
    (dat2 V c).arrAt 5 cfg2.N = G :=
  (dat2 V c).arrAt_eq_of_cover 5 G (fun t _ => flushed2 V c t G hG) cover2

end Cert.KernelIdeal.Region2

end
-- ==== Proof.RefRows.lean ====
/-
  The reference program's two normalisation layers, read one row at a time.

  In the reference the layer is a chain of whole-array host operations: the bias row repeated and added, a sum over the
  lanes, the count's division, the mean repeated and subtracted, the square, a second sum and division, the offset, the
  reciprocal square root repeated along the lanes, the gain and offset rows repeated, the clip at zero. Read at row
  `r` and lane `k`, every repeat reads its operand's row `r` (or its one row), every sum ranges over the lanes of row
  `r`, and a host sum's initial value is the zero word: so the stage's entry is the normalised row `r` of the layer's
  input — the same function of that row that a block of rows computes in the kernel.
-/
import proofs.«140895_j30614526886066_2_alg».proof.Proof.RefReadP
import proofs.«140895_j30614526886066_2_alg».proof.Proof.LibRowNorm

noncomputable section

open scoped BigOperators

namespace Cert.ReferenceIdeal.RefRows

open Cert.ReferenceIdeal Cert.ReferenceIdeal.Gen Cert.ReferenceIdeal.ReadP
open Idealize.ShloMosaic Idealize.ShloMosaic.ValueIdx

/-! ## The generated index functions at coordinates -/

theorem i_v51 (r : Fin 50000) (k : Fin 128) : idx_main_v51 (ix2 r k) = ix2 (0 : Fin 1) k := funext fun a => Fin.ext (by match a with | ⟨0, _⟩ => rfl | ⟨1, _⟩ => rfl)
theorem i_v72 (r : Fin 50000) (k : Fin 128) : idx_main_v72 (ix2 r k) = ix2 (0 : Fin 1) k := funext fun a => Fin.ext (by match a with | ⟨0, _⟩ => rfl | ⟨1, _⟩ => rfl)
theorem i_v75 (r : Fin 50000) (k : Fin 128) : idx_main_v75 (ix2 r k) = ix2 (0 : Fin 1) k := funext fun a => Fin.ext (by match a with | ⟨0, _⟩ => rfl | ⟨1, _⟩ => rfl)
theorem i_v50 (k : Fin 128) : idx_main_v50 (ix2 (0 : Fin 1) k) = ix1 k := funext fun a => Fin.ext (by match a with | ⟨0, _⟩ => rfl)
theorem i_v71 (k : Fin 128) : idx_main_v71 (ix2 (0 : Fin 1) k) = ix1 k := funext fun a => Fin.ext (by match a with | ⟨0, _⟩ => rfl)
theorem i_v74 (k : Fin 128) : idx_main_v74 (ix2 (0 : Fin 1) k) = ix1 k := funext fun a => Fin.ext (by match a with | ⟨0, _⟩ => rfl)
theorem i_v57 (r : Fin 50000) (k : Fin 128) : idx_main_v57 (ix2 r k) = ix2 r (0 : Fin 1) := funext fun a => Fin.ext (by match a with | ⟨0, _⟩ => rfl | ⟨1, _⟩ => rfl)
theorem i_v64 (r : Fin 50000) (k : Fin 128) : idx_main_v64 (ix2 r k) = ix2 r (0 : Fin 1) := funext fun a => Fin.ext (by match a with | ⟨0, _⟩ => rfl | ⟨1, _⟩ => rfl)
theorem i_v69 (r : Fin 50000) (k : Fin 128) : idx_main_v69 (ix2 r k) = ix2 r (0 : Fin 1) := funext fun a => Fin.ext (by match a with | ⟨0, _⟩ => rfl | ⟨1, _⟩ => rfl)
theorem i_v54 (r : Fin 50000) : idx_main_v54 (ix2 r (0 : Fin 1)) = ix1 r := funext fun a => Fin.ext (by match a with | ⟨0, _⟩ => rfl)
theorem i_v61 (r : Fin 50000) : idx_main_v61 (ix2 r (0 : Fin 1)) = ix1 r := funext fun a => Fin.ext (by match a with | ⟨0, _⟩ => rfl)
theorem i_v53 (r : Fin 50000) (j : Fin 128) : idx_main_v53 (ix1 r) j = ix2 r j := funext fun a => Fin.ext (by match a with | ⟨0, _⟩ => rfl | ⟨1, _⟩ => rfl)
theorem i_v60 (r : Fin 50000) (j : Fin 128) : idx_main_v60 (ix1 r) j = ix2 r j := funext fun a => Fin.ext (by match a with | ⟨0, _⟩ => rfl | ⟨1, _⟩ => rfl)
theorem i_v125 (r : Fin 50000) (k : Fin 128) : idx_main_v125 (ix2 r k) = ix2 (0 : Fin 1) k := funext fun a => Fin.ext (by match a with | ⟨0, _⟩ => rfl | ⟨1, _⟩ => rfl)
theorem i_v146 (r : Fin 50000) (k : Fin 128) : idx_main_v146 (ix2 r k) = ix2 (0 : Fin 1) k := funext fun a => Fin.ext (by match a with | ⟨0, _⟩ => rfl | ⟨1, _⟩ => rfl)
theorem i_v149 (r : Fin 50000) (k : Fin 128) : idx_main_v149 (ix2 r k) = ix2 (0 : Fin 1) k := funext fun a => Fin.ext (by match a with | ⟨0, _⟩ => rfl | ⟨1, _⟩ => rfl)
theorem i_v124 (k : Fin 128) : idx_main_v124 (ix2 (0 : Fin 1) k) = ix1 k := funext fun a => Fin.ext (by match a with | ⟨0, _⟩ => rfl)
theorem i_v145 (k : Fin 128) : idx_main_v145 (ix2 (0 : Fin 1) k) = ix1 k := funext fun a => Fin.ext (by match a with | ⟨0, _⟩ => rfl)
theorem i_v148 (k : Fin 128) : idx_main_v148 (ix2 (0 : Fin 1) k) = ix1 k := funext fun a => Fin.ext (by match a with | ⟨0, _⟩ => rfl)
theorem i_v131 (r : Fin 50000) (k : Fin 128) : idx_main_v131 (ix2 r k) = ix2 r (0 : Fin 1) := funext fun a => Fin.ext (by match a with | ⟨0, _⟩ => rfl | ⟨1, _⟩ => rfl)
theorem i_v138 (r : Fin 50000) (k : Fin 128) : idx_main_v138 (ix2 r k) = ix2 r (0 : Fin 1) := funext fun a => Fin.ext (by match a with | ⟨0, _⟩ => rfl | ⟨1, _⟩ => rfl)
theorem i_v143 (r : Fin 50000) (k : Fin 128) : idx_main_v143 (ix2 r k) = ix2 r (0 : Fin 1) := funext fun a => Fin.ext (by match a with | ⟨0, _⟩ => rfl | ⟨1, _⟩ => rfl)
theorem i_v128 (r : Fin 50000) : idx_main_v128 (ix2 r (0 : Fin 1)) = ix1 r := funext fun a => Fin.ext (by match a with | ⟨0, _⟩ => rfl)
theorem i_v135 (r : Fin 50000) : idx_main_v135 (ix2 r (0 : Fin 1)) = ix1 r := funext fun a => Fin.ext (by match a with | ⟨0, _⟩ => rfl)
theorem i_v127 (r : Fin 50000) (j : Fin 128) : idx_main_v127 (ix1 r) j = ix2 r j := funext fun a => Fin.ext (by match a with | ⟨0, _⟩ => rfl | ⟨1, _⟩ => rfl)
theorem i_v134 (r : Fin 50000) (j : Fin 128) : idx_main_v134 (ix1 r) j = ix2 r j := funext fun a => Fin.ext (by match a with | ⟨0, _⟩ => rfl | ⟨1, _⟩ => rfl)

/-! ## The two layers -/

/-- The first layer's clipped output at `(r, k)` is the normalised row `r` of the first aggregate. -/
theorem relu1_rows (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (r : Fin 50000) (k : Fin 128) :
    val_main_v77 (F := Ideal) x0 x1 x2 x3 x4 x5 (ix2 r k)
      = Cert.RowNorm.normRow (Ideal.ofBits .f32 0x43000000#32) (Ideal.ofBits .f32 0x3727C5AC#32) (Ideal.ofBits .f32 0x00000000#32)
          (fun j => val_main_v49 (F := Ideal) x0 x1 x2 (ix2 r j)) (fun j => x3 (ix1 j)) (fun j => x4 (ix1 j)) (fun j => x5 (ix1 j)) k := by
  unfold Cert.RowNorm.normRow
  simp only [val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_call0_v0_apply, val_main_call0_cst_apply, val_main_cst_10_apply, val_main_cst_11_apply, val_main_cst_12_apply, val_main_cst_13_apply, val_main_cst_14_apply,
    i_v51, i_v72, i_v75, i_v50, i_v71, i_v74, i_v57, i_v64, i_v69, i_v54, i_v61, i_v53, i_v60,
    Ideal.addf_def, Ideal.subf_def, Ideal.mulf_def, Ideal.maximumf_def, Ideal.hostDivf_def, Ideal.hostUnary_rsqrt_def, Ideal.ofBits_def, Ideal.ofBits_zero_f32, zero_add]

/-- The second layer's clipped output at `(r, k)` is the normalised row `r` of the second aggregate. -/
theorem relu2_rows (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (r : Fin 50000) (k : Fin 128) :
    val_main_v151 (F := Ideal) x0 x1 x2 x3 x4 x5 x6 x7 x8 x9 (ix2 r k)
      = Cert.RowNorm.normRow (Ideal.ofBits .f32 0x43000000#32) (Ideal.ofBits .f32 0x3727C5AC#32) (Ideal.ofBits .f32 0x00000000#32)
          (fun j => val_main_v123 (F := Ideal) x0 x1 x2 x3 x4 x5 x6 (ix2 r j)) (fun j => x7 (ix1 j)) (fun j => x8 (ix1 j)) (fun j => x9 (ix1 j)) k := by
  unfold Cert.RowNorm.normRow
  simp only [val_main_v151_apply, val_main_v150_apply, val_main_v149_apply, val_main_v148_apply, val_main_v147_apply, val_main_v146_apply, val_main_v145_apply, val_main_v144_apply, val_main_v143_apply, val_main_v142_apply, val_main_v141_apply, val_main_v140_apply, val_main_v139_apply, val_main_v138_apply, val_main_v137_apply, val_main_v136_apply, val_main_v135_apply, val_main_v134_apply, val_main_v133_apply, val_main_v132_apply, val_main_v131_apply, val_main_v130_apply, val_main_v129_apply, val_main_v128_apply, val_main_v127_apply, val_main_v126_apply, val_main_v125_apply, val_main_v124_apply, val_main_call1_v0_apply, val_main_call1_cst_apply, val_main_cst_27_apply, val_main_cst_28_apply, val_main_cst_29_apply, val_main_cst_30_apply, val_main_cst_31_apply,
    i_v125, i_v146, i_v149, i_v124, i_v145, i_v148, i_v131, i_v138, i_v143, i_v128, i_v135, i_v127, i_v134,
    Ideal.addf_def, Ideal.subf_def, Ideal.mulf_def, Ideal.maximumf_def, Ideal.hostDivf_def, Ideal.hostUnary_rsqrt_def, Ideal.ofBits_def, Ideal.ofBits_zero_f32, zero_add]

end Cert.ReferenceIdeal.RefRows

end
-- ==== Proof.KernelStages.lean ====
/-
  The idealized kernel's buffers, boundary by boundary, as functions of the argument arrays.

  The run passes six boundaries: after the first stretch of host operations, after the first region, after the second
  stretch, after the second region, after the third stretch, after the third region. At each boundary the buffers the
  next segment reads are named here as functions of the ten argument arrays — and the functions are the reference
  program's own stages: the first region leaves `x · W1`, the second stretch turns it into the normalised-adjacency
  aggregate of it, the second region leaves the product with `W2` of the normalised, clipped rows of that aggregate plus
  bias, the third stretch aggregates again, and the third region normalises, clips and adds `x`. The aggregate (gathers
  of rows, a scatter that adds, the degree scaling) is the same sequence of host operations in both programs and is never
  opened: on the extended reals a change of float format is the identity, so the kernel's detour through a narrower
  format changes nothing. A buffer that a segment does not write keeps its contents through it.
-/
import proofs.«140895_j30614526886066_2_alg».proof.Proof.Gen.KernelIdeal.Frame
import proofs.«140895_j30614526886066_2_alg».proof.Proof.KernelRegion0
import proofs.«140895_j30614526886066_2_alg».proof.Proof.KernelRegion1
import proofs.«140895_j30614526886066_2_alg».proof.Proof.KernelRegion2
import proofs.«140895_j30614526886066_2_alg».proof.Proof.RefRows

set_option maxRecDepth 16384

noncomputable section

open scoped BigOperators

namespace Cert.KernelIdeal.Stages

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

/-! ## The first stretch: the arguments are kept; the edge lists, the edge weights and the self weights are computed -/

theorem w1_arg0 : W1 m ρ c (Proc.devRef .tc main_arg0) = (m ((c.tc : Thread nD τ).loc main_arg0)) := by
  show StableHlo.after hostOps0 (W0 m ρ c) (Proc.devRef .tc main_arg0) = _
  after_results_simp <;> rfl
theorem w1_arg1 : W1 m ρ c (Proc.devRef .tc main_arg1) = (m ((c.tc : Thread nD τ).loc main_arg1)) := by
  show StableHlo.after hostOps0 (W0 m ρ c) (Proc.devRef .tc main_arg1) = _
  after_results_simp <;> rfl
theorem w1_arg2 : W1 m ρ c (Proc.devRef .tc main_arg2) = (m ((c.tc : Thread nD τ).loc main_arg2)) := by
  show StableHlo.after hostOps0 (W0 m ρ c) (Proc.devRef .tc main_arg2) = _
  after_results_simp <;> rfl
theorem w1_arg3 : W1 m ρ c (Proc.devRef .tc main_arg3) = (m ((c.tc : Thread nD τ).loc main_arg3)) := by
  show StableHlo.after hostOps0 (W0 m ρ c) (Proc.devRef .tc main_arg3) = _
  after_results_simp <;> rfl
theorem w1_arg4 : W1 m ρ c (Proc.devRef .tc main_arg4) = (m ((c.tc : Thread nD τ).loc main_arg4)) := by
  show StableHlo.after hostOps0 (W0 m ρ c) (Proc.devRef .tc main_arg4) = _
  after_results_simp <;> rfl
theorem w1_arg5 : W1 m ρ c (Proc.devRef .tc main_arg5) = (m ((c.tc : Thread nD τ).loc main_arg5)) := by
  show StableHlo.after hostOps0 (W0 m ρ c) (Proc.devRef .tc main_arg5) = _
  after_results_simp <;> rfl
theorem w1_arg6 : W1 m ρ c (Proc.devRef .tc main_arg6) = (m ((c.tc : Thread nD τ).loc main_arg6)) := by
  show StableHlo.after hostOps0 (W0 m ρ c) (Proc.devRef .tc main_arg6) = _
  after_results_simp <;> rfl
theorem w1_arg7 : W1 m ρ c (Proc.devRef .tc main_arg7) = (m ((c.tc : Thread nD τ).loc main_arg7)) := by
  show StableHlo.after hostOps0 (W0 m ρ c) (Proc.devRef .tc main_arg7) = _
  after_results_simp <;> rfl
theorem w1_arg8 : W1 m ρ c (Proc.devRef .tc main_arg8) = (m ((c.tc : Thread nD τ).loc main_arg8)) := by
  show StableHlo.after hostOps0 (W0 m ρ c) (Proc.devRef .tc main_arg8) = _
  after_results_simp <;> rfl
theorem w1_arg9 : W1 m ρ c (Proc.devRef .tc main_arg9) = (m ((c.tc : Thread nD τ).loc main_arg9)) := by
  show StableHlo.after hostOps0 (W0 m ρ c) (Proc.devRef .tc main_arg9) = _
  after_results_simp <;> rfl
/-- The source of each edge: the reference's stage of the edge array. -/
theorem w1_main_v1 : W1 m ρ c (Proc.devRef .tc main_v1) = Cert.ReferenceIdeal.ReadP.val_main_v1 (F := Ideal) (m ((c.tc : Thread nD τ).loc main_arg1)) := by
  show StableHlo.after hostOps0 (W0 m ρ c) (Proc.devRef .tc main_v1) = _
  after_results_simp <;> rfl
/-- The destination of each edge: the reference's stage of the edge array. -/
theorem w1_main_v3 : W1 m ρ c (Proc.devRef .tc main_v3) = Cert.ReferenceIdeal.ReadP.val_main_v3 (F := Ideal) (m ((c.tc : Thread nD τ).loc main_arg1)) := by
  show StableHlo.after hostOps0 (W0 m ρ c) (Proc.devRef .tc main_v3) = _
  after_results_simp <;> rfl
/-- The weight of each edge: the reference's stage of the edge array. -/
theorem w1_main_v30 : W1 m ρ c (Proc.devRef .tc main_v30) = Cert.ReferenceIdeal.ReadP.val_main_v31 (F := Ideal) (m ((c.tc : Thread nD τ).loc main_arg1)) := by
  show StableHlo.after hostOps0 (W0 m ρ c) (Proc.devRef .tc main_v30) = _
  after_results_simp <;> rfl
/-- The weight of each node's self loop: the reference's stage of the edge array. -/
theorem w1_main_v31 : W1 m ρ c (Proc.devRef .tc main_v31) = Cert.ReferenceIdeal.ReadP.val_main_v45 (F := Ideal) (m ((c.tc : Thread nD τ).loc main_arg1)) := by
  show StableHlo.after hostOps0 (W0 m ρ c) (Proc.devRef .tc main_v31) = _
  after_results_simp <;> rfl

/-! ## The first region: the product of the input with the first weight array -/

theorem lidx_v4 (R : Fin 50000) (cc : Fin 128) (k : Fin 128) : Cert.ReferenceIdeal.ReadP.lidx_main_v4 (ix2 R cc) k = ix2 R k :=
  funext fun a => Fin.ext (by match a with | ⟨0, _⟩ => rfl | ⟨1, _⟩ => rfl)
theorem ridx_v4 (R : Fin 50000) (cc : Fin 128) (k : Fin 128) : Cert.ReferenceIdeal.ReadP.ridx_main_v4 (ix2 R cc) k = ix2 k cc :=
  funext fun a => Fin.ext (by match a with | ⟨0, _⟩ => rfl | ⟨1, _⟩ => rfl)

theorem arr0 : (dat0 (V1 m ρ) c).arrAt 2 cfg0.N = Cert.ReferenceIdeal.ReadP.val_main_v4 (F := Ideal) (m ((c.tc : Thread nD τ).loc main_arg0)) (m ((c.tc : Thread nD τ).loc main_arg2)) :=
  Region0.final0 (V1 m ρ) c (m ((c.tc : Thread nD τ).loc main_arg0)) (m ((c.tc : Thread nD τ).loc main_arg2)) (w1_arg0 m ρ c) (w1_arg2 m ρ c) _ fun R cc => by
    rw [Cert.ReferenceIdeal.ReadP.val_main_v4_apply]
    exact Finset.sum_congr rfl fun k _ => by rw [lidx_v4, ridx_v4]

/-! ## The first region's exit -/

theorem w2_main_v32 : W2 m ρ c (Proc.devRef .tc main_v32) = Cert.ReferenceIdeal.ReadP.val_main_v4 (F := Ideal) (m ((c.tc : Thread nD τ).loc main_arg0)) (m ((c.tc : Thread nD τ).loc main_arg2)) :=
  (W2_arr m ρ c 2).trans (arr0 m ρ c)

theorem w2_main_v1 : W2 m ρ c (Proc.devRef .tc main_v1) = Cert.ReferenceIdeal.ReadP.val_main_v1 (F := Ideal) (m ((c.tc : Thread nD τ).loc main_arg1)) :=
  (W2_of_ne m ρ c main_v1 (by decide)).trans (w1_main_v1 m ρ c)
theorem w2_main_v3 : W2 m ρ c (Proc.devRef .tc main_v3) = Cert.ReferenceIdeal.ReadP.val_main_v3 (F := Ideal) (m ((c.tc : Thread nD τ).loc main_arg1)) :=
  (W2_of_ne m ρ c main_v3 (by decide)).trans (w1_main_v3 m ρ c)
theorem w2_main_v30 : W2 m ρ c (Proc.devRef .tc main_v30) = Cert.ReferenceIdeal.ReadP.val_main_v31 (F := Ideal) (m ((c.tc : Thread nD τ).loc main_arg1)) :=
  (W2_of_ne m ρ c main_v30 (by decide)).trans (w1_main_v30 m ρ c)
theorem w2_main_v31 : W2 m ρ c (Proc.devRef .tc main_v31) = Cert.ReferenceIdeal.ReadP.val_main_v45 (F := Ideal) (m ((c.tc : Thread nD τ).loc main_arg1)) :=
  (W2_of_ne m ρ c main_v31 (by decide)).trans (w1_main_v31 m ρ c)
theorem w2_arg3 : W2 m ρ c (Proc.devRef .tc main_arg3) = (m ((c.tc : Thread nD τ).loc main_arg3)) :=
  (W2_of_ne m ρ c main_arg3 (by decide)).trans (w1_arg3 m ρ c)
theorem w2_arg4 : W2 m ρ c (Proc.devRef .tc main_arg4) = (m ((c.tc : Thread nD τ).loc main_arg4)) :=
  (W2_of_ne m ρ c main_arg4 (by decide)).trans (w1_arg4 m ρ c)
theorem w2_arg5 : W2 m ρ c (Proc.devRef .tc main_arg5) = (m ((c.tc : Thread nD τ).loc main_arg5)) :=
  (W2_of_ne m ρ c main_arg5 (by decide)).trans (w1_arg5 m ρ c)
theorem w2_arg6 : W2 m ρ c (Proc.devRef .tc main_arg6) = (m ((c.tc : Thread nD τ).loc main_arg6)) :=
  (W2_of_ne m ρ c main_arg6 (by decide)).trans (w1_arg6 m ρ c)
theorem w2_arg7 : W2 m ρ c (Proc.devRef .tc main_arg7) = (m ((c.tc : Thread nD τ).loc main_arg7)) :=
  (W2_of_ne m ρ c main_arg7 (by decide)).trans (w1_arg7 m ρ c)
theorem w2_arg8 : W2 m ρ c (Proc.devRef .tc main_arg8) = (m ((c.tc : Thread nD τ).loc main_arg8)) :=
  (W2_of_ne m ρ c main_arg8 (by decide)).trans (w1_arg8 m ρ c)
theorem w2_arg9 : W2 m ρ c (Proc.devRef .tc main_arg9) = (m ((c.tc : Thread nD τ).loc main_arg9)) :=
  (W2_of_ne m ρ c main_arg9 (by decide)).trans (w1_arg9 m ρ c)
theorem w2_arg0 : W2 m ρ c (Proc.devRef .tc main_arg0) = (m ((c.tc : Thread nD τ).loc main_arg0)) :=
  ((W2_arr m ρ c 0).trans (((dat0 (V1 m ρ) c).arrAt_in 0 rfl _).trans (A_eq0 (V1 m ρ) c 0))).trans (w1_arg0 m ρ c)

/-! ## The second stretch: the aggregate of the product, and the three parameter rows as one-row arrays -/

theorem w3_main_v51 : W3 m ρ c (Proc.devRef .tc main_v51) = Cert.ReferenceIdeal.ReadP.val_main_v49 (F := Ideal) (m ((c.tc : Thread nD τ).loc main_arg0)) (m ((c.tc : Thread nD τ).loc main_arg1)) (m ((c.tc : Thread nD τ).loc main_arg2)) := by
  show StableHlo.after hostOps1 (W2 m ρ c) (Proc.devRef .tc main_v51) = _
  after_results_simp
  rw [w2_main_v32, w2_main_v1, w2_main_v3, w2_main_v30, w2_main_v31]
  rfl

theorem w3_main_v52 : W3 m ρ c (Proc.devRef .tc main_v52) = shapeCast S1x128 (m ((c.tc : Thread nD τ).loc main_arg3)) shapeCasts_S128_S1x128 := by
  show StableHlo.after hostOps1 (W2 m ρ c) (Proc.devRef .tc main_v52) = _
  after_results_simp
  rw [w2_arg3]
  try rfl
theorem w3_main_v53 : W3 m ρ c (Proc.devRef .tc main_v53) = shapeCast S1x128 (m ((c.tc : Thread nD τ).loc main_arg4)) shapeCasts_S128_S1x128 := by
  show StableHlo.after hostOps1 (W2 m ρ c) (Proc.devRef .tc main_v53) = _
  after_results_simp
  rw [w2_arg4]
  try rfl
theorem w3_main_v54 : W3 m ρ c (Proc.devRef .tc main_v54) = shapeCast S1x128 (m ((c.tc : Thread nD τ).loc main_arg5)) shapeCasts_S128_S1x128 := by
  show StableHlo.after hostOps1 (W2 m ρ c) (Proc.devRef .tc main_v54) = _
  after_results_simp
  rw [w2_arg5]
  try rfl
theorem w3_arg6 : W3 m ρ c (Proc.devRef .tc main_arg6) = (m ((c.tc : Thread nD τ).loc main_arg6)) := by
  show StableHlo.after hostOps1 (W2 m ρ c) (Proc.devRef .tc main_arg6) = _
  after_results_simp
  exact w2_arg6 m ρ c
theorem w3_arg7 : W3 m ρ c (Proc.devRef .tc main_arg7) = (m ((c.tc : Thread nD τ).loc main_arg7)) := by
  show StableHlo.after hostOps1 (W2 m ρ c) (Proc.devRef .tc main_arg7) = _
  after_results_simp
  exact w2_arg7 m ρ c
theorem w3_arg8 : W3 m ρ c (Proc.devRef .tc main_arg8) = (m ((c.tc : Thread nD τ).loc main_arg8)) := by
  show StableHlo.after hostOps1 (W2 m ρ c) (Proc.devRef .tc main_arg8) = _
  after_results_simp
  exact w2_arg8 m ρ c
theorem w3_arg9 : W3 m ρ c (Proc.devRef .tc main_arg9) = (m ((c.tc : Thread nD τ).loc main_arg9)) := by
  show StableHlo.after hostOps1 (W2 m ρ c) (Proc.devRef .tc main_arg9) = _
  after_results_simp
  exact w2_arg9 m ρ c
theorem w3_arg0 : W3 m ρ c (Proc.devRef .tc main_arg0) = (m ((c.tc : Thread nD τ).loc main_arg0)) := by
  show StableHlo.after hostOps1 (W2 m ρ c) (Proc.devRef .tc main_arg0) = _
  after_results_simp
  exact w2_arg0 m ρ c
theorem w3_main_v1 : W3 m ρ c (Proc.devRef .tc main_v1) = Cert.ReferenceIdeal.ReadP.val_main_v1 (F := Ideal) (m ((c.tc : Thread nD τ).loc main_arg1)) := by
  show StableHlo.after hostOps1 (W2 m ρ c) (Proc.devRef .tc main_v1) = _
  after_results_simp
  exact w2_main_v1 m ρ c
theorem w3_main_v3 : W3 m ρ c (Proc.devRef .tc main_v3) = Cert.ReferenceIdeal.ReadP.val_main_v3 (F := Ideal) (m ((c.tc : Thread nD τ).loc main_arg1)) := by
  show StableHlo.after hostOps1 (W2 m ρ c) (Proc.devRef .tc main_v3) = _
  after_results_simp
  exact w2_main_v3 m ρ c
theorem w3_main_v30 : W3 m ρ c (Proc.devRef .tc main_v30) = Cert.ReferenceIdeal.ReadP.val_main_v31 (F := Ideal) (m ((c.tc : Thread nD τ).loc main_arg1)) := by
  show StableHlo.after hostOps1 (W2 m ρ c) (Proc.devRef .tc main_v30) = _
  after_results_simp
  exact w2_main_v30 m ρ c
theorem w3_main_v31 : W3 m ρ c (Proc.devRef .tc main_v31) = Cert.ReferenceIdeal.ReadP.val_main_v45 (F := Ideal) (m ((c.tc : Thread nD τ).loc main_arg1)) := by
  show StableHlo.after hostOps1 (W2 m ρ c) (Proc.devRef .tc main_v31) = _
  after_results_simp
  exact w2_main_v31 m ρ c

/-- A vector laid out as a one-row array reads, at `(0, j)`, the vector at `j`. -/
theorem row_apply (x : (⟨S128, .f32⟩ : BufTy).Contents (Elt Ideal)) (j : Fin 128) :
    shapeCast S1x128 x shapeCasts_S128_S1x128 (ix2 (0 : Fin 1) j) = x (ix1 j) :=
  shapeCast_a_1a_apply x shapeCasts_S128_S1x128 (0 : Fin 1) j

/-! ## The second region: the product with the second weight array of the normalised, clipped rows -/

theorem lidx_v78 (R : Fin 50000) (cc : Fin 128) (k : Fin 128) : Cert.ReferenceIdeal.ReadP.lidx_main_v78 (ix2 R cc) k = ix2 R k :=
  funext fun a => Fin.ext (by match a with | ⟨0, _⟩ => rfl | ⟨1, _⟩ => rfl)
theorem ridx_v78 (R : Fin 50000) (cc : Fin 128) (k : Fin 128) : Cert.ReferenceIdeal.ReadP.ridx_main_v78 (ix2 R cc) k = ix2 k cc :=
  funext fun a => Fin.ext (by match a with | ⟨0, _⟩ => rfl | ⟨1, _⟩ => rfl)

theorem arr1 : (dat1 (V3 m ρ) c).arrAt 5 cfg1.N
    = Cert.ReferenceIdeal.ReadP.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  Region1.final1 (V3 m ρ) c _ fun R cc => by
    have h_main_v51 : (fun j : Fin 128 => (W3 m ρ c (Proc.devRef .tc main_v51) (ix2 R j) : EReal))
        = fun j => Cert.ReferenceIdeal.ReadP.val_main_v49 (F := Ideal) (m ((c.tc : Thread nD τ).loc main_arg0)) (m ((c.tc : Thread nD τ).loc main_arg1)) (m ((c.tc : Thread nD τ).loc main_arg2)) (ix2 R j) := by rw [w3_main_v51]
    have h_main_v52 : (fun j : Fin 128 => (W3 m ρ c (Proc.devRef .tc main_v52) (ix2 (0 : Fin 1) j) : EReal)) = fun j => (m ((c.tc : Thread nD τ).loc main_arg3)) (ix1 j) := by
      rw [w3_main_v52]; exact funext fun j => row_apply _ j
    have h_main_v53 : (fun j : Fin 128 => (W3 m ρ c (Proc.devRef .tc main_v53) (ix2 (0 : Fin 1) j) : EReal)) = fun j => (m ((c.tc : Thread nD τ).loc main_arg4)) (ix1 j) := by
      rw [w3_main_v53]; exact funext fun j => row_apply _ j
    have h_main_v54 : (fun j : Fin 128 => (W3 m ρ c (Proc.devRef .tc main_v54) (ix2 (0 : Fin 1) j) : EReal)) = fun j => (m ((c.tc : Thread nD τ).loc main_arg5)) (ix1 j) := by
      rw [w3_main_v54]; exact funext fun j => row_apply _ j
    rw [Cert.ReferenceIdeal.ReadP.val_main_v78_apply]
    refine Finset.sum_congr rfl fun k _ => ?_
    rw [lidx_v78, ridx_v78, Cert.ReferenceIdeal.RefRows.relu1_rows]
    show _ = Cert.RowNorm.normRow _ _ _ (fun j => W3 m ρ c (Proc.devRef .tc main_v51) (ix2 R j)) (fun j => W3 m ρ c (Proc.devRef .tc main_v52) (ix2 (0 : Fin 1) j))
      (fun j => W3 m ρ c (Proc.devRef .tc main_v53) (ix2 (0 : Fin 1) j)) (fun j => W3 m ρ c (Proc.devRef .tc main_v54) (ix2 (0 : Fin 1) j)) k
      * (W3 m ρ c (Proc.devRef .tc main_arg6) (ix2 k cc) : EReal)
    rw [h_main_v51, h_main_v52, h_main_v53, h_main_v54, w3_arg6]

/-! ## The second region's exit -/

theorem w4_main_v55 : W4 m ρ c (Proc.devRef .tc main_v55)
    = Cert.ReferenceIdeal.ReadP.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W4_arr m ρ c 5).trans (arr1 m ρ c)

theorem w4_main_v1 : W4 m ρ c (Proc.devRef .tc main_v1) = Cert.ReferenceIdeal.ReadP.val_main_v1 (F := Ideal) (m ((c.tc : Thread nD τ).loc main_arg1)) :=
  (W4_of_ne m ρ c main_v1 (by decide)).trans (w3_main_v1 m ρ c)
theorem w4_main_v3 : W4 m ρ c (Proc.devRef .tc main_v3) = Cert.ReferenceIdeal.ReadP.val_main_v3 (F := Ideal) (m ((c.tc : Thread nD τ).loc main_arg1)) :=
  (W4_of_ne m ρ c main_v3 (by decide)).trans (w3_main_v3 m ρ c)
theorem w4_main_v30 : W4 m ρ c (Proc.devRef .tc main_v30) = Cert.ReferenceIdeal.ReadP.val_main_v31 (F := Ideal) (m ((c.tc : Thread nD τ).loc main_arg1)) :=
  (W4_of_ne m ρ c main_v30 (by decide)).trans (w3_main_v30 m ρ c)
theorem w4_main_v31 : W4 m ρ c (Proc.devRef .tc main_v31) = Cert.ReferenceIdeal.ReadP.val_main_v45 (F := Ideal) (m ((c.tc : Thread nD τ).loc main_arg1)) :=
  (W4_of_ne m ρ c main_v31 (by decide)).trans (w3_main_v31 m ρ c)
theorem w4_arg7 : W4 m ρ c (Proc.devRef .tc main_arg7) = (m ((c.tc : Thread nD τ).loc main_arg7)) :=
  (W4_of_ne m ρ c main_arg7 (by decide)).trans (w3_arg7 m ρ c)
theorem w4_arg8 : W4 m ρ c (Proc.devRef .tc main_arg8) = (m ((c.tc : Thread nD τ).loc main_arg8)) :=
  (W4_of_ne m ρ c main_arg8 (by decide)).trans (w3_arg8 m ρ c)
theorem w4_arg9 : W4 m ρ c (Proc.devRef .tc main_arg9) = (m ((c.tc : Thread nD τ).loc main_arg9)) :=
  (W4_of_ne m ρ c main_arg9 (by decide)).trans (w3_arg9 m ρ c)
theorem w4_arg0 : W4 m ρ c (Proc.devRef .tc main_arg0) = (m ((c.tc : Thread nD τ).loc main_arg0)) :=
  (W4_of_ne m ρ c main_arg0 (by decide)).trans (w3_arg0 m ρ c)

/-! ## The third stretch: the aggregate again, and the last three parameter rows -/

theorem w5_main_v74 : W5 m ρ c (Proc.devRef .tc main_v74)
    = Cert.ReferenceIdeal.ReadP.val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps2 (W4 m ρ c) (Proc.devRef .tc main_v74) = _
  after_results_simp
  rw [w4_main_v55, w4_main_v1, w4_main_v3, w4_main_v30, w4_main_v31]
  rfl

theorem w5_main_v75 : W5 m ρ c (Proc.devRef .tc main_v75) = shapeCast S1x128 (m ((c.tc : Thread nD τ).loc main_arg7)) shapeCasts_S128_S1x128 := by
  show StableHlo.after hostOps2 (W4 m ρ c) (Proc.devRef .tc main_v75) = _
  after_results_simp
  rw [w4_arg7]
  try rfl
theorem w5_main_v76 : W5 m ρ c (Proc.devRef .tc main_v76) = shapeCast S1x128 (m ((c.tc : Thread nD τ).loc main_arg8)) shapeCasts_S128_S1x128 := by
  show StableHlo.after hostOps2 (W4 m ρ c) (Proc.devRef .tc main_v76) = _
  after_results_simp
  rw [w4_arg8]
  try rfl
theorem w5_main_v77 : W5 m ρ c (Proc.devRef .tc main_v77) = shapeCast S1x128 (m ((c.tc : Thread nD τ).loc main_arg9)) shapeCasts_S128_S1x128 := by
  show StableHlo.after hostOps2 (W4 m ρ c) (Proc.devRef .tc main_v77) = _
  after_results_simp
  rw [w4_arg9]
  try rfl
theorem w5_arg0 : W5 m ρ c (Proc.devRef .tc main_arg0) = (m ((c.tc : Thread nD τ).loc main_arg0)) := by
  show StableHlo.after hostOps2 (W4 m ρ c) (Proc.devRef .tc main_arg0) = _
  after_results_simp
  exact w4_arg0 m ρ c

/-! ## The third region: the rows normalised, clipped, and the input added -/

theorem arr2 : (dat2 (V5 m ρ) c).arrAt 5 cfg2.N
    = Cert.ReferenceIdeal.ReadP.val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  Region2.final2 (V5 m ρ) c _ fun R cc => by
    have h_main_v74 : (fun j : Fin 128 => (W5 m ρ c (Proc.devRef .tc main_v74) (ix2 R j) : EReal))
        = fun j => Cert.ReferenceIdeal.ReadP.val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 R j) := by rw [w5_main_v74]
    have h_main_v75 : (fun j : Fin 128 => (W5 m ρ c (Proc.devRef .tc main_v75) (ix2 (0 : Fin 1) j) : EReal)) = fun j => (m ((c.tc : Thread nD τ).loc main_arg7)) (ix1 j) := by
      rw [w5_main_v75]; exact funext fun j => row_apply _ j
    have h_main_v76 : (fun j : Fin 128 => (W5 m ρ c (Proc.devRef .tc main_v76) (ix2 (0 : Fin 1) j) : EReal)) = fun j => (m ((c.tc : Thread nD τ).loc main_arg8)) (ix1 j) := by
      rw [w5_main_v76]; exact funext fun j => row_apply _ j
    have h_main_v77 : (fun j : Fin 128 => (W5 m ρ c (Proc.devRef .tc main_v77) (ix2 (0 : Fin 1) j) : EReal)) = fun j => (m ((c.tc : Thread nD τ).loc main_arg9)) (ix1 j) := by
      rw [w5_main_v77]; exact funext fun j => row_apply _ j
    rw [Cert.ReferenceIdeal.ReadP.val_main_v152_apply, Cert.ReferenceIdeal.RefRows.relu2_rows]
    show _ = Cert.RowNorm.normRow _ _ _ (fun j => W5 m ρ c (Proc.devRef .tc main_v74) (ix2 R j)) (fun j => W5 m ρ c (Proc.devRef .tc main_v75) (ix2 (0 : Fin 1) j))
      (fun j => W5 m ρ c (Proc.devRef .tc main_v76) (ix2 (0 : Fin 1) j)) (fun j => W5 m ρ c (Proc.devRef .tc main_v77) (ix2 (0 : Fin 1) j)) cc
      + (W5 m ρ c (Proc.devRef .tc main_arg0) (ix2 R cc) : EReal)
    rw [h_main_v74, h_main_v75, h_main_v76, h_main_v77, w5_arg0]
    rfl

/-- THE RESULT: after the third region the result buffer holds the reference's last stage of the argument arrays. -/
theorem result : W6 m ρ c (Proc.devRef .tc main_v78)
    = Cert.ReferenceIdeal.ReadP.val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W6_arr m ρ c 5).trans (arr2 m ρ c)

end Cert.KernelIdeal.Stages

end
-- ==== Proof.lean ====
/-
  A two-layer graph convolution with layer normalisation, clipping at zero and a residual: the kernel against its
  reference, on the extended reals.

  Both programs compute, for an input `x` of 50000 rows of 128 lanes and a list of 600000 edges,
  `relu (LN (A (relu (LN (A (x · W1) + b1)) · W2) + b2)) + x`, where `A` is the aggregate over the graph with its
  symmetric degree normalisation (gathers of rows, a scatter that adds, and a self-loop term) and `LN` normalises each
  row by its mean and its mean square plus a small offset, then applies a gain row and an offset row. The reference runs
  all of it as host operations on whole arrays. The kernel runs the two products and the two normalisations in three
  pipelined regions of 25 grid points each, a point working on 2000 rows, keeps the aggregate as host operations
  between the regions, and passes the products through a narrower float format.

  On the extended reals the two are one function of the arguments, and no law of arithmetic beyond that is needed:
  a change of float format is the identity; a matrix unit's product into a zero accumulator and the host's general
  dot product are both the sum over the contracted position; a lane reduction and a host sum with a zero initial
  value are both the sum over the lanes; the product and the normalisation of a row read that row only, so 25 blocks
  of 2000 rows give the whole array; and the aggregate is the same sequence of host operations on both sides, applied
  to equal arrays. The inputs' finiteness is not used.

  * `KernelRun`: every execution of the idealized kernel ends with its result buffer at the last boundary's contents;
  * `KernelRegion0/1/2` over `KernelBlocks` and `LibRowNorm`: the array each region leaves, from its blocks;
  * `KernelStages`: those contents, boundary by boundary, are the reference's stages of the arguments;
  * `RefRows`: the reference's normalisation layers read one row at a time;
  * the reference's run and its stages one operation at a time are `RefRunP` and `RefReadP`.
  The two word-level and idealized frames are the generated ones; the reference's frame is its run with the result
  dropped; the idealization rewrote no operation, so nothing is to be preserved.
-/
import proofs.«140895_j30614526886066_2_alg».proof.Defs
import proofs.«140895_j30614526886066_2_alg».proof.Proof.Gen.Kernel
import proofs.«140895_j30614526886066_2_alg».proof.Proof.Gen.Kernel.Skeleton
import proofs.«140895_j30614526886066_2_alg».proof.Proof.Gen.Kernel.Launch
import proofs.«140895_j30614526886066_2_alg».proof.Proof.Gen.Kernel.Points
import proofs.«140895_j30614526886066_2_alg».proof.Proof.Gen.Kernel.Frame
import proofs.«140895_j30614526886066_2_alg».proof.Proof.Gen.KernelIdeal
import proofs.«140895_j30614526886066_2_alg».proof.Proof.Gen.KernelIdeal.Skeleton
import proofs.«140895_j30614526886066_2_alg».proof.Proof.Gen.KernelIdeal.Launch
import proofs.«140895_j30614526886066_2_alg».proof.Proof.Gen.KernelIdeal.Points
import proofs.«140895_j30614526886066_2_alg».proof.Proof.Gen.KernelIdeal.Frame
import proofs.«140895_j30614526886066_2_alg».proof.Proof.Gen.ReferenceIdeal
import proofs.«140895_j30614526886066_2_alg».proof.Proof.Gen.Pre_finite_inputs
import proofs.«140895_j30614526886066_2_alg».proof.Proof.KernelRun
import proofs.«140895_j30614526886066_2_alg».proof.Proof.KernelStages
import proofs.«140895_j30614526886066_2_alg».proof.Proof.RefReadP
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the same array: the reference's last stage of
    the arguments — the kernel's result buffer by its run and its boundaries, the reference's by its run and its stages. -/
theorem algebraic : Cert.algebraic_KernelIdeal_ReferenceIdeal := by
  intro m ρ m' ρ' _ hagree
  refine ⟨fun c => Cert.ReferenceIdeal.ReadP.val_main_v152 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Stages.result m ρ c), (h c).2⟩)
      (Cert.KernelIdeal.RunValue.run (F := Ideal) m ρ)
  · refine (θ_run Cert.ReferenceIdeal.defs _ _).mono (fun r h c => ⟨?_, (h c).2⟩)
      (Cert.ReferenceIdeal.ValueP.run (F := Ideal) m' ρ')
    obtain ⟨a0, a1, a2, a3, a4, a5, a6, a7, a8, a9⟩ := hagree c
    rw [(h c).1, Cert.ReferenceIdeal.ReadP.val_main_v152_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
